-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1)) (v1 : (c : Dev Cert.KernelIdeal.nD) → Buf (Elt Ideal) ((c.tc : Thread Cert.KernelIdeal.nD Cert.KernelIdeal.τ).loc Cert.KernelIdeal.main_arg1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg1) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x128 : Shape := ⟨2, ![32, 128]⟩
abbrev S32 : Shape := ⟨1, ![32]⟩
abbrev S1000000x128 : Shape := ⟨2, ![1000000, 128]⟩
abbrev S1000000 : Shape := ⟨1, ![1000000]⟩
abbrev S_ : Shape := ⟨0, ![]⟩

class Facts : Prop where
  bcast_S_S32x128 : S_.BroadcastsInDim S32x128 (![] : Fin 0 → Fin S32x128.rank)
  reducesTo_S32x128_S_d0_1 : S32x128.ReducesTo [0, 1] S_
  h_S_ : 0 < S_.numel
  bcast_S_S1000000x128 : S_.BroadcastsInDim S1000000x128 (![] : Fin 0 → Fin S1000000x128.rank)
  reducesTo_S1000000x128_S_d0_1 : S1000000x128.ReducesTo [0, 1] S_
  bcast_S_S1000000 : S_.BroadcastsInDim S1000000 (![] : Fin 0 → Fin S1000000.rank)
  reducesTo_S1000000_S_d0 : S1000000.ReducesTo [0] S_

variable [Facts]

def fn {F : FTy → Type} [FloatOps F] (main_arg0 : FVec F S32x128 .f32) (main_arg1 : IVec S32 32) (main_arg2 : FVec F S1000000x128 .f32) (main_arg3 : FVec F S1000000 .f32) : IVec S_ 1 :=
  let main_v0 : FVec F S32x128 .f32 := Host.absf main_arg0
  let main_cst : FVec F S_ .f32 := constant S_ .f32 0x7F800000#32
  let main_v1 : FVec F S32x128 .f32 := broadcastInDim S32x128 ![] bcast_S_S32x128 main_cst
  let main_v2 : IVec S32x128 1 := cmpf .olt main_v0 main_v1
  let main_c : IVec S_ 1 := constantI S_ 1 1#1
  let main_v3 : IVec S_ 1 := (fun x v => Host.reduce IntOp.andi x v reducesTo_S32x128_S_d0_1 h_S_) main_v2 main_c
  let main_v4 : FVec F S1000000x128 .f32 := Host.absf main_arg2
  let main_cst_0 : FVec F S_ .f32 := constant S_ .f32 0x7F800000#32
  let main_v5 : FVec F S1000000x128 .f32 := broadcastInDim S1000000x128 ![] bcast_S_S1000000x128 main_cst_0
  let main_v6 : IVec S1000000x128 1 := cmpf .olt main_v4 main_v5
  let main_c_1 : IVec S_ 1 := constantI S_ 1 1#1
  let main_v7 : IVec S_ 1 := (fun x v => Host.reduce IntOp.andi x v reducesTo_S1000000x128_S_d0_1 h_S_) main_v6 main_c_1
  let main_v8 : IVec S_ 1 := andi main_v3 main_v7
  let main_v9 : FVec F S1000000 .f32 := Host.absf main_arg3
  let main_cst_2 : FVec F S_ .f32 := constant S_ .f32 0x7F800000#32
  let main_v10 : FVec F S1000000 .f32 := broadcastInDim S1000000 ![] bcast_S_S1000000 main_cst_2
  let main_v11 : IVec S1000000 1 := cmpf .olt main_v9 main_v10
  let main_c_3 : IVec S_ 1 := constantI S_ 1 1#1
  let main_v12 : IVec S_ 1 := (fun x v => Host.reduce IntOp.andi x v reducesTo_S1000000_S_d0 h_S_) main_v11 main_c_3
  let main_v13 : IVec S_ 1 := andi main_v8 main_v12
  main_v13
-- ==== Kernel.lean ====
abbrev S32x128 : Shape := ⟨2, ![32, 128]⟩
abbrev S32 : Shape := ⟨1, ![32]⟩
abbrev S1000000x128 : Shape := ⟨2, ![1000000, 128]⟩
abbrev S1000000 : Shape := ⟨1, ![1000000]⟩
abbrev S1x1000000 : Shape := ⟨2, ![1, 1000000]⟩
abbrev S32x1000000 : Shape := ⟨2, ![32, 1000000]⟩
abbrev S8192x128 : Shape := ⟨2, ![8192, 128]⟩
abbrev S1x8192 : Shape := ⟨2, ![1, 8192]⟩
abbrev S32x8192 : Shape := ⟨2, ![32, 8192]⟩

abbrev nBuf : Space → Nat
  | .hbm => 6
  | .vmem => 7
  | .smem => 0
  | _ => 0

abbrev bufTy : (tb : Table) → Fin (tcTables nBuf tb) → BufTy
  | .hbm, ⟨0, _⟩ => ⟨S32x128, .f32⟩
  | .hbm, ⟨1, _⟩ => ⟨S32, .i32⟩
  | .hbm, ⟨2, _⟩ => ⟨S1000000x128, .f32⟩
  | .hbm, ⟨3, _⟩ => ⟨S1000000, .f32⟩
  | .hbm, ⟨4, _⟩ => ⟨S1x1000000, .f32⟩
  | .hbm, ⟨5, _⟩ => ⟨S32x1000000, .f32⟩
  | .local _ .vmem, ⟨0, _⟩ => ⟨S32x128, .f32⟩
  | .local _ .vmem, ⟨1, _⟩ => ⟨S8192x128, .f32⟩
  | .local _ .vmem, ⟨2, _⟩ => ⟨S8192x128, .f32⟩
  | .local _ .vmem, ⟨3, _⟩ => ⟨S1x8192, .f32⟩
  | .local _ .vmem, ⟨4, _⟩ => ⟨S1x8192, .f32⟩
  | .local _ .vmem, ⟨5, _⟩ => ⟨S32x8192, .f32⟩
  | .local _ .vmem, ⟨6, _⟩ => ⟨S32x8192, .f32⟩
  | _, _ => ⟨S32x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![123], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S32x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S8192x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x8192 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S32x8192 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S1000000_S1x1000000 : S1000000.ShapeCasts S1x1000000
  inb_S32x128_S32x128_0_0 : ∀ a, (![0, 0] : Fin 2 → Nat) a + S32x128.size a ≤ S32x128.size a
  h_S32x128 : 0 < S32x128.numel
  inb_S8192x128_S8192x128_0_0 : ∀ a, (![0, 0] : Fin 2 → Nat) a + S8192x128.size a ≤ S8192x128.size a
  h_S8192x128 : 0 < S8192x128.numel
  inb_S1x8192_S1x8192_0_0 : ∀ a, (![0, 0] : Fin 2 → Nat) a + S1x8192.size a ≤ S1x8192.size a
  h_S1x8192 : 0 < S1x8192.numel
  shapeCasts_S1x8192_S1x8192 : S1x8192.ShapeCasts S1x8192
  broadcasts_S1x8192_S32x8192 : S1x8192.Broadcasts S32x8192
  inb_S32x8192_S32x8192_0_0 : ∀ a, (![0, 0] : Fin 2 → Nat) a + S32x8192.size a ≤ S32x8192.size a
  h_S32x8192 : 0 < S32x8192.numel
  dot_S32x128_S8192x128_S32x8192_1_1_0_0_n_n_wf : DotDims.WF S32x128 S8192x128 S32x8192 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S32x128.size a ≤ S32x128.size a
  hwx0_0 : ∀ i : grid0.Coords, EltTy.bits .f32 = 32 ∨ (Rect.block (s := S32x128) S32x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hstart0_1 : ∀ (i : grid0.Coords) a, cc0_transform_1 i a * S8192x128.size a < S1000000x128.size a
  hwx0_1 : ∀ i : grid0.Coords, EltTy.bits .f32 = 32 ∨ (Rect.unit (s := S1000000x128) (fun a => cc0_transform_1 i a * S8192x128.size a) (fun a => (Pipeline.Clip.of (cc0_transform_1 i a) (S8192x128.size a) (S1000000x128.size a)).extent (S8192x128.size a)) fun a => Pipeline.Clip.inb (Pipeline.Clip.ok_of (hstart0_1 i a))).WholeWords (EltTy.packing .f32)
  hwxs0_1 : ∀ i : grid0.Coords, EltTy.bits .f32 = 32 ∨ (Rect.unit (s := S8192x128) (fun _ => 0) (fun a => (Pipeline.Clip.of (cc0_transform_1 i a) (S8192x128.size a) (S1000000x128.size a)).extent (S8192x128.size a)) fun a => (Nat.zero_add _).trans_le (Pipeline.Clip.extent_le (Pipeline.Clip.ok_of (hstart0_1 i a)))).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hstart0_2 : ∀ (i : grid0.Coords) a, cc0_transform_2 i a * S1x8192.size a < S1x1000000.size a
  hwx0_2 : ∀ i : grid0.Coords, EltTy.bits .f32 = 32 ∨ (Rect.unit (s := S1x1000000) (fun a => cc0_transform_2 i a * S1x8192.size a) (fun a => (Pipeline.Clip.of (cc0_transform_2 i a) (S1x8192.size a) (S1x1000000.size a)).extent (S1x8192.size a)) fun a => Pipeline.Clip.inb (Pipeline.Clip.ok_of (hstart0_2 i a))).WholeWords (EltTy.packing .f32)
  hwxs0_2 : ∀ i : grid0.Coords, EltTy.bits .f32 = 32 ∨ (Rect.unit (s := S1x8192) (fun _ => 0) (fun a => (Pipeline.Clip.of (cc0_transform_2 i a) (S1x8192.size a) (S1x1000000.size a)).extent (S1x8192.size a)) fun a => (Nat.zero_add _).trans_le (Pipeline.Clip.extent_le (Pipeline.Clip.ok_of (hstart0_2 i a)))).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hstart0_3 : ∀ (i : grid0.Coords) a, cc0_transform_3 i a * S32x8192.size a < S32x1000000.size a
  hwx0_3 : ∀ i : grid0.Coords, EltTy.bits .f32 = 32 ∨ (Rect.unit (s := S32x1000000) (fun a => cc0_transform_3 i a * S32x8192.size a) (fun a => (Pipeline.Clip.of (cc0_transform_3 i a) (S32x8192.size a) (S32x1000000.size a)).extent (S32x8192.size a)) fun a => Pipeline.Clip.inb (Pipeline.Clip.ok_of (hstart0_3 i a))).WholeWords (EltTy.packing .f32)
  hwxs0_3 : ∀ i : grid0.Coords, EltTy.bits .f32 = 32 ∨ (Rect.unit (s := S32x8192) (fun _ => 0) (fun a => (Pipeline.Clip.of (cc0_transform_3 i a) (S32x8192.size a) (S32x1000000.size a)).extent (S32x8192.size a)) fun a => (Nat.zero_add _).trans_le (Pipeline.Clip.extent_le (Pipeline.Clip.ok_of (hstart0_3 i a)))).WholeWords (EltTy.packing .f32)

variable [Facts₀]

def dot_S32x128_S8192x128_S32x8192_1_1_0_0_n_n : DotDims S32x128 S8192x128 S32x8192 where
  lhsContracting := [1]
  rhsContracting := [1]
  lhsNonContracting := [0]
  rhsNonContracting := [0]
  lhsBatch := []
  rhsBatch := []
  wf := dot_S32x128_S8192x128_S32x8192_1_1_0_0_n_n_wf

abbrev win0_0 : Pipeline.Window sig grid0 :=
  Pipeline.Window.ofSpec (Memref.whole main_arg0) S32x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpecClip (Memref.whole main_arg2) S8192x128.size cc0_transform_1 reads0_1 false false 2 stage0_1 sem0_1
    hrank0 hreads0_1 hstart0_1 nbuf0_1 (Memref.isWhole_whole _) hwx0_1 hwxs0_1 hstage0_1

abbrev win0_2 : Pipeline.Window sig grid0 :=
  Pipeline.Window.ofSpecClip (Memref.whole main_v0) S1x8192.size cc0_transform_2 reads0_2 false false 2 stage0_2 sem0_2
    hrank0 hreads0_2 hstart0_2 nbuf0_2 (Memref.isWhole_whole _) hwx0_2 hwxs0_2 hstage0_2

abbrev win0_3 : Pipeline.Window sig grid0 :=
  Pipeline.Window.ofSpecClip (Memref.whole main_v1) S32x8192.size cc0_transform_3 reads0_3 true false 2 stage0_3 sem0_3
    hrank0 hreads0_3 hstart0_3 nbuf0_3 (Memref.isWhole_whole _) hwx0_3 hwxs0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S32x128 : Shape := ⟨2, ![32, 128]⟩
abbrev S32 : Shape := ⟨1, ![32]⟩
abbrev S1000000x128 : Shape := ⟨2, ![1000000, 128]⟩
abbrev S1000000 : Shape := ⟨1, ![1000000]⟩
abbrev S128x1000000 : Shape := ⟨2, ![128, 1000000]⟩
abbrev S32x1000000 : Shape := ⟨2, ![32, 1000000]⟩
abbrev S1x1000000 : Shape := ⟨2, ![1, 1000000]⟩

abbrev nBuf : Space → Nat
  | .hbm => 9
  | .vmem => 0
  | .smem => 0
  | _ => 0

abbrev bufTy : (tb : Table) → Fin (tcTables nBuf tb) → BufTy
  | .hbm, ⟨0, _⟩ => ⟨S32x128, .f32⟩
  | .hbm, ⟨1, _⟩ => ⟨S32, .i32⟩
  | .hbm, ⟨2, _⟩ => ⟨S1000000x128, .f32⟩
  | .hbm, ⟨3, _⟩ => ⟨S1000000, .f32⟩
  | .hbm, ⟨4, _⟩ => ⟨S128x1000000, .f32⟩
  | .hbm, ⟨5, _⟩ => ⟨S32x1000000, .f32⟩
  | .hbm, ⟨6, _⟩ => ⟨S1x1000000, .f32⟩
  | .hbm, ⟨7, _⟩ => ⟨S32x1000000, .f32⟩
  | .hbm, ⟨8, _⟩ => ⟨S32x1000000, .f32⟩
  | _, _ => ⟨S32x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]

class Facts₀ : Prop where
  transposes_S1000000x128_S128x1000000_1_0 : S1000000x128.Transposes [1, 0] S128x1000000
  bcast_S1000000_S1x1000000_1 : S1000000.BroadcastsInDim S1x1000000 (![1] : Fin 1 → Fin S1x1000000.rank)
  bcast_S1x1000000_S32x1000000_0_1 : S1x1000000.BroadcastsInDim S32x1000000 (![0, 1] : Fin 2 → Fin S32x1000000.rank)
  dot_S32x128_S128x1000000_S32x1000000_1_0_0_1_n_n_wf : DotDims.WF S32x128 S128x1000000 S32x1000000 [1] [0] [0] [1] [] []

variable [Facts₀]

def dot_S32x128_S128x1000000_S32x1000000_1_0_0_1_n_n : DotDims S32x128 S128x1000000 S32x1000000 where
  lhsContracting := [1]
  rhsContracting := [0]
  lhsNonContracting := [0]
  rhsNonContracting := [1]
  lhsBatch := []
  rhsBatch := []
  wf := dot_S32x128_S128x1000000_S32x1000000_1_0_0_1_n_n_wf

class Facts : Prop extends Facts₀ where

variable [Facts]
-- ==== Proof.KernelBody.lean ====
/-
  The body of the projection kernel, run once on whole staging buffers.

  One grid step loads the whole activations block `x` (32 × 128), the whole weights block `w` (8192 × 128) and the
  whole bias row `b` (1 × 8192), and stores into the whole result block (32 × 8192) the value
  `x · wᵀ + b` (one matrix product into a zero accumulator, the bias row repeated down the 32 rows).  The three input
  buffers are only read; the result buffer is read once (a dead load) and then overwritten whole, so what it held
  before does not matter.  Stated for every float instance: nothing here looks inside the arithmetic.
-/
import proofs.«140623_g13451837571286_cont_sun_m_1295_1_alg».proof.Proof.Gen.Kernel.Frame
import proofs.«140623_g13451837571286_cont_sun_m_1295_1_alg».proof.Proof.Gen.Kernel.Skeleton
import Idealize.ShloMosaic.Lib.Pipeline.Frame
import Idealize.ShloMosaic.Lib.Pipeline.Value

set_option maxRecDepth 16384

noncomputable section

namespace Cert.Kernel.Body

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Every access of the body starts at the origin of its buffer. -/
theorem origin2 : (![0, 0] : Fin 2 → Nat) = fun _ => 0 := funext fun a => by fin_cases a <;> rfl

/-- The one store of the body, through the whole result buffer from the origin, covers every index of it. -/
theorem cover_store (p : S32x8192.Idx → Elt F .f32) (y : S32x8192.Idx) :
    ∃ pc ∈ ([⟨Rect.unit (s := S32x8192) ![0, 0] S32x8192.size Gen.inb_S32x8192_S32x8192_0_0, p⟩] :
        List (View.Piece (Elt F) S32x8192 .f32)), y ∈ pc.1.set :=
  ⟨_, List.mem_singleton_self _, View.mem_set_unit_zero (S := S32x8192) origin2 Gen.inb_S32x8192_S32x8192_0_0 y⟩

set_option maxHeartbeats 1000000 in
/-- The body on whole staging memrefs: `x`'s, `w`'s and `b`'s buffers at contents `x0`, `w0`, `b0` and the result's at
    anything.  It runs to the continuation with the three inputs as they were and the result's buffer holding
    `x0 · w0ᵀ + b0` (the skeleton's one payload), because the one store covers the whole buffer from the origin. -/
theorem sound_kernel (c : Dev nD) (E : Set ℕ) (i : grid0.Coords)
    (arg1 : Memref sig .tc .vmem S32x128 .f32) (harg1 : arg1.IsWhole)
    (arg2 : Memref sig .tc .vmem S8192x128 .f32) (harg2 : arg2.IsWhole)
    (arg3 : Memref sig .tc .vmem S1x8192 .f32) (harg3 : arg3.IsWhole)
    (arg4 : Memref sig .tc .vmem S32x8192 .f32) (harg4 : arg4.IsWhole)
    (x0 : Vec F S32x128 .f32) (w0 : Vec F S8192x128 .f32) (b0 : Vec F S1x8192 .f32) (K : PUnit → sProp 𝕄) :
    iprop(owns (c : Thread nD τ) arg1 fullShare x0 ∗ owns (c : Thread nD τ) arg2 fullShare w0
        ∗ owns (c : Thread nD τ) arg3 fullShare b0 ∗ (∃ d, owns (c : Thread nD τ) arg4 fullShare d)
        ∗ (iprop(owns (c : Thread nD τ) arg1 fullShare x0 ∗ owns (c : Thread nD τ) arg2 fullShare w0
            ∗ owns (c : Thread nD τ) arg3 fullShare b0 ∗ owns (c : Thread nD τ) arg4 fullShare (k0_pay1 x0 w0 b0)) -∗ K ⟨⟩))
      ⊢ wp frame (wpE (defs₀ (F := F)) Variants.none c none) E
          (cc0__proj_kernel i arg1 harg1 arg2 harg2 arg3 harg3 arg4 harg4) K := by
  simp only [cc0__proj_kernel_eq_skeleton]; unfold cc0__proj_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  rw [View.read_writes_eq_canon _ _ _ (cover_store _), View.canon_unit_zero (S := S32x8192) origin2]
  have e0 : View.readAt (Elt F) arg1.view (Rect.unit (s := S32x128) ![0, 0] S32x128.size Gen.inb_S32x128_S32x128_0_0).toLoadRect f0
      = View.read (Elt F) arg1.view f0 :=
    (View.readAt_eq_ld _ _ _).trans (View.ld_unit_zero (S := S32x128) origin2 _ _)
  have e1 : View.readAt (Elt F) arg2.view (Rect.unit (s := S8192x128) ![0, 0] S8192x128.size Gen.inb_S8192x128_S8192x128_0_0).toLoadRect f1
      = View.read (Elt F) arg2.view f1 :=
    (View.readAt_eq_ld _ _ _).trans (View.ld_unit_zero (S := S8192x128) origin2 _ _)
  have e2 : View.readAt (Elt F) arg3.view (Rect.unit (s := S1x8192) ![0, 0] S1x8192.size Gen.inb_S1x8192_S1x8192_0_0).toLoadRect f2
      = View.read (Elt F) arg3.view f2 :=
    (View.readAt_eq_ld _ _ _).trans (View.ld_unit_zero (S := S1x8192) origin2 _ _)
  rw [e0, e1, e2]

end Cert.Kernel.Body

end
-- ==== Proof.KernelFrame.lean ====
/-
  The frame of the projection kernel read at bit patterns: it runs to the end, faults nowhere and leaves its four
  argument arrays as they were.

  The grid has 123 steps over a vocabulary of 1,000,000 = 122 · 8192 + 576 columns, so the last step's weight, bias
  and result blocks overhang their arrays.  A fetch of an overhanging block fills the staging buffer's leading part
  (the rows or columns inside the array) with the array's entries and leaves the rest at words nothing names; the
  write-back of the result writes only the leading part.  The body reads its three input buffers whole and does not
  change them, so after the body each input buffer holds, on its leading part, the block it was fetched with, which is
  all the pipeline asks of an overhanging window.  At bit patterns one entry of a matrix-unit product is not known to
  depend on its own operand row alone, so what the result buffer holds at the last step is not named here: for a frame
  nothing reads it, and the result window is left unstated (handed to the body at any contents, taken back at any).
-/
import proofs.«140623_g13451837571286_cont_sun_m_1295_1_alg».proof.Proof.KernelBody
import Idealize.ShloMosaic.Lib.Pipeline.Frame

set_option maxRecDepth 16384

noncomputable section

namespace Cert.Kernel.Body

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data -/

/-- The one window whose buffer contents are not stated: the result's. -/
def unstated : Fin 4 → Bool := fun w => w.val == 3

/-- The weights block of step `t` as a whole 8192 × 128 buffer: the rows inside the array, the zero word below them. -/
def wpad (c : Dev nD) (t : Fin cfg0.N) : S8192x128.Idx → Elt F .f32 :=
  (cfg0.win 1).fill (cfg0.grid.coords t) (fun _ => Scalar.ofBits .f32 0#32) (iblk m c 1 t)
/-- The bias block of step `t` as a whole 1 × 8192 buffer, likewise. -/
def bpad (c : Dev nD) (t : Fin cfg0.N) : S1x8192.Idx → Elt F .f32 :=
  (cfg0.win 2).fill (cfg0.grid.coords t) (fun _ => Scalar.ofBits .f32 0#32) (iblk m c 2 t)

/-- The proof data on core `c`: the arrays as the region finds them; after the body the activations' buffer at its
    block, the weights' and the bias's at their padded blocks, the result's unstated; the invariant the scoped rest and
    the generator register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => wpad m c t
    | ⟨2, _⟩ => bpad m c t
    | ⟨3, h⟩ => Pipeline.Dat.unnamed (cfg := cfg0) ⟨3, h⟩ t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = wpad m c t := by dsimp only [dats]
theorem after0_2 (c : Dev nD) (t : Fin cfg0.N) : (dats m 0 c).after 2 t = bpad m c t := by dsimp only [dats]

/-- The activations' buffer holds its block at every step (fetched once, kept since). -/
theorem before0_0 (c : Dev nD) (t : Fin cfg0.N) (d) : (dats m 0 c).before 0 t d = iblk m c 0 t :=
  before0_0_of m (dats m 0 c) (A_eq m c 0) (after0_0 m c) t d

/-- The weights' buffer is fetched at every step: its block on the rows inside the array, `d` below them. -/
theorem before0_1 (c : Dev nD) (t : Fin cfg0.N) (d) :
    (dats m 0 c).before 1 t d = (cfg0.win 1).fill (cfg0.grid.coords t) d (iblk m c 1 t) := by
  rw [(dats m 0 c).before_fetched 1 t (fetch0_1 t)]
  unfold Dat.fetched Dat.blockOf iblk
  rw [A_eq]
/-- The bias's likewise. -/
theorem before0_2 (c : Dev nD) (t : Fin cfg0.N) (d) :
    (dats m 0 c).before 2 t d = (cfg0.win 2).fill (cfg0.grid.coords t) d (iblk m c 2 t) := by
  rw [(dats m 0 c).before_fetched 2 t (fetch0_2 t)]
  unfold Dat.fetched Dat.blockOf iblk
  rw [A_eq]

/-! ## The body obligation, at a generic step -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ X, owns (c : Thread nD τ) (st0_3 t) fullShare X))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ (∃ d, owns (c : Thread nD τ) (st0_1 t) fullShare
        ((cfg0.win 1).fill (cfg0.grid.coords t) d ((cfg0.win 1).cut (cfg0.grid.coords t) ((dats m 0 c).after 1 t))))
    ∗ (∃ d, owns (c : Thread nD τ) (st0_2 t) fullShare
        ((cfg0.win 2).fill (cfg0.grid.coords t) d ((cfg0.win 2).cut (cfg0.grid.coords t) ((dats m 0 c).after 2 t))))
    ∗ (∃ X, owns (c : Thread nD τ) (st0_3 t) fullShare X))

/-- The body at any step: the three input buffers arrive holding their blocks (padded by whatever was there), so the
    body's triple applies; they leave as they came, which on the leading parts is what the data states. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2]
  iintro ⟨HΦ, Ho, ⟨%d0, H0⟩, ⟨%d1, H1⟩, ⟨%d2, H2⟩, ⟨%X3, H3⟩⟩
  iapply (sound_kernel c Set.univ (grid0.coords t) _ _ _ _ _ _ _ _ (iblk m c 0 t)
    ((cfg0.win 1).fill (cfg0.grid.coords t) d1 (iblk m c 1 t)) ((cfg0.win 2).fill (cfg0.grid.coords t) d2 (iblk m c 2 t)) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  have h1 : (cfg0.win 1).cut (cfg0.grid.coords t) (wpad m c t) = iblk m c 1 t := (cfg0.win 1).cut_fill _ _ _
  have h2 : (cfg0.win 2).cut (cfg0.grid.coords t) (bpad m c t) = iblk m c 2 t := (cfg0.win 2).cut_fill _ _ _
  isplitl [H1]
  · iexists d1; rw [h1]; iexact H1
  isplitl [H2]
  · iexists d2; rw [h2]; iexact H2
  iexists _; iexact H3

/-- The pipeline's body obligation, the result window unstated. -/
theorem body_obligation (c : Dev nD) :
    BodyObligationLoose (dats (F := F) m 0 c) (defs₀ (F := F)) Variants.none () Set.univ unstated := fun t => by
  rw [bigSep_W0, bigSep_W0]
  exact sound_body m c t

/-! ## The run and the frame -/

set_option backward.isDefEq.respectTransparency.types false in
/-- Every weakly fair execution of @main terminates, and every final state has each input array of the pipeline
    unchanged and every other unscoped buffer as the region found it; nothing is said of the result array. -/
theorem run_main : θ_run defs (onTc (τ := τ) (main (F := F))) (s₀ m ρ)
    (Pipeline.RDat.FramePost (cfgs 0) (fun c => (dats m 0 c).toRForget unstated) (V m)) :=
  Pipeline.RDat.θ_run_frame cfgs (0 : Fin 1) launch0 defs₀ Variants.none (fun c => (dats m 0 c).toRForget unstated) m ρ main
    (hbody := fun c => (body_obligation m c).toRForget) (hshare := fun c => ((dats m 0 c).toRForget unstated).share_full fun _ => rfl)
    (howed := fun _ _ => rfl) (V := V m) (hmain := hmain m Variants.none) (hA := A_eq m) (hΦ := fun _ _ => rfl)

/-- The frame: the activations and the weights are inputs of the pipeline, never written; the labels and the bias
    vector bypass the region (the pipeline stages the bias's reshaped copy, not the vector). -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((congrFun (((dats m 0 c).toRForget unstated).ArrAt_in 0 rfl _) _).mp ((h c).1 0)).trans ((A_eq m c 0).trans (V_main_arg0 m c)),
      ((h c).2 main_arg1 (Pipeline.mem_restRefs_of main_arg1 (by decide) (by decide))).trans (V_main_arg1 m c),
      ((congrFun (((dats m 0 c).toRForget unstated).ArrAt_in 1 rfl _) _).mp ((h c).1 1)).trans ((A_eq m c 1).trans (V_main_arg2 m c)),
      ((h c).2 main_arg3 (Pipeline.mem_restRefs_of main_arg3 (by decide) (by decide))).trans (V_main_arg3 m c)⟩) (run_main m ρ)

end Cert.Kernel.Body

end
-- ==== Proof.IdealBody.lean ====
/-
  The body of the projection kernel, run once on whole staging buffers.

  One grid step loads the whole activations block `x` (32 × 128), the whole weights block `w` (8192 × 128) and the
  whole bias row `b` (1 × 8192), and stores into the whole result block (32 × 8192) the value
  `x · wᵀ + b` (one matrix product into a zero accumulator, the bias row repeated down the 32 rows).  The three input
  buffers are only read; the result buffer is read once (a dead load) and then overwritten whole, so what it held
  before does not matter.  Stated for every float instance: nothing here looks inside the arithmetic.
-/
import proofs.«140623_g13451837571286_cont_sun_m_1295_1_alg».proof.Proof.Gen.KernelIdeal.Frame
import proofs.«140623_g13451837571286_cont_sun_m_1295_1_alg».proof.Proof.Gen.KernelIdeal.Skeleton
import Idealize.ShloMosaic.Lib.Pipeline.Frame
import Idealize.ShloMosaic.Lib.Pipeline.Value

set_option maxRecDepth 16384

noncomputable section

namespace Cert.KernelIdeal.Body

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Every access of the body starts at the origin of its buffer. -/
theorem origin2 : (![0, 0] : Fin 2 → Nat) = fun _ => 0 := funext fun a => by fin_cases a <;> rfl

/-- The one store of the body, through the whole result buffer from the origin, covers every index of it. -/
theorem cover_store (p : S32x8192.Idx → Elt F .f32) (y : S32x8192.Idx) :
    ∃ pc ∈ ([⟨Rect.unit (s := S32x8192) ![0, 0] S32x8192.size Gen.inb_S32x8192_S32x8192_0_0, p⟩] :
        List (View.Piece (Elt F) S32x8192 .f32)), y ∈ pc.1.set :=
  ⟨_, List.mem_singleton_self _, View.mem_set_unit_zero (S := S32x8192) origin2 Gen.inb_S32x8192_S32x8192_0_0 y⟩

set_option maxHeartbeats 1000000 in
/-- The body on whole staging memrefs: `x`'s, `w`'s and `b`'s buffers at contents `x0`, `w0`, `b0` and the result's at
    anything.  It runs to the continuation with the three inputs as they were and the result's buffer holding
    `x0 · w0ᵀ + b0` (the skeleton's one payload), because the one store covers the whole buffer from the origin. -/
theorem sound_kernel (c : Dev nD) (E : Set ℕ) (i : grid0.Coords)
    (arg1 : Memref sig .tc .vmem S32x128 .f32) (harg1 : arg1.IsWhole)
    (arg2 : Memref sig .tc .vmem S8192x128 .f32) (harg2 : arg2.IsWhole)
    (arg3 : Memref sig .tc .vmem S1x8192 .f32) (harg3 : arg3.IsWhole)
    (arg4 : Memref sig .tc .vmem S32x8192 .f32) (harg4 : arg4.IsWhole)
    (x0 : Vec F S32x128 .f32) (w0 : Vec F S8192x128 .f32) (b0 : Vec F S1x8192 .f32) (K : PUnit → sProp 𝕄) :
    iprop(owns (c : Thread nD τ) arg1 fullShare x0 ∗ owns (c : Thread nD τ) arg2 fullShare w0
        ∗ owns (c : Thread nD τ) arg3 fullShare b0 ∗ (∃ d, owns (c : Thread nD τ) arg4 fullShare d)
        ∗ (iprop(owns (c : Thread nD τ) arg1 fullShare x0 ∗ owns (c : Thread nD τ) arg2 fullShare w0
            ∗ owns (c : Thread nD τ) arg3 fullShare b0 ∗ owns (c : Thread nD τ) arg4 fullShare (k0_pay1 x0 w0 b0)) -∗ K ⟨⟩))
      ⊢ wp frame (wpE (defs₀ (F := F)) Variants.none c none) E
          (cc0__proj_kernel i arg1 harg1 arg2 harg2 arg3 harg3 arg4 harg4) K := by
  simp only [cc0__proj_kernel_eq_skeleton]; unfold cc0__proj_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  rw [View.read_writes_eq_canon _ _ _ (cover_store _), View.canon_unit_zero (S := S32x8192) origin2]
  have e0 : View.readAt (Elt F) arg1.view (Rect.unit (s := S32x128) ![0, 0] S32x128.size Gen.inb_S32x128_S32x128_0_0).toLoadRect f0
      = View.read (Elt F) arg1.view f0 :=
    (View.readAt_eq_ld _ _ _).trans (View.ld_unit_zero (S := S32x128) origin2 _ _)
  have e1 : View.readAt (Elt F) arg2.view (Rect.unit (s := S8192x128) ![0, 0] S8192x128.size Gen.inb_S8192x128_S8192x128_0_0).toLoadRect f1
      = View.read (Elt F) arg2.view f1 :=
    (View.readAt_eq_ld _ _ _).trans (View.ld_unit_zero (S := S8192x128) origin2 _ _)
  have e2 : View.readAt (Elt F) arg3.view (Rect.unit (s := S1x8192) ![0, 0] S1x8192.size Gen.inb_S1x8192_S1x8192_0_0).toLoadRect f2
      = View.read (Elt F) arg3.view f2 :=
    (View.readAt_eq_ld _ _ _).trans (View.ld_unit_zero (S := S1x8192) origin2 _ _)
  rw [e0, e1, e2]

end Cert.KernelIdeal.Body

end
-- ==== Proof.IdealPayload.lean ====
/-
  One grid step's stored block, read entry by entry over the extended reals.

  With exact arithmetic the block the body stores is, at row `p` (of 32) and column `q` (of 8192),
      Σ_{k < 128} x(p, k) · w(q, k)  +  b(0, q):
  the matrix product contracts the second axis of both operands (so `w` enters transposed), its accumulator is the zero
  splat and adds nothing, the bias row is cast to its own shape (the identity) and repeated down the rows.
  Column `q` of the result therefore reads row `q` of `w` and entry `q` of `b` and nothing else of them: this is what
  makes the last, overhanging grid step harmless.
-/
import proofs.«140623_g13451837571286_cont_sun_m_1295_1_alg».proof.Proof.Gen.KernelIdeal.Skeleton
import Idealize.ShloMosaic.Lib.ValueIdx
import Idealize.ShloMosaic.Lib.Pipeline.Value
import Idealize.ShloMosaic.PureOps.Ideal.Laws

noncomputable section

namespace Cert.KernelIdeal.Payload

open Cert.KernelIdeal Cert.KernelIdeal.Gen
open Idealize.ShloMosaic Idealize.ShloMosaic.ValueIdx

/-! ## The operand indices of the product -/

/-- The left operand is read at the output's row … -/
theorem lhs_row (i : S32x8192.Idx) (q : dot_S32x128_S8192x128_S32x8192_1_1_0_0_n_n.contr.Idx) : (dot_S32x128_S8192x128_S32x8192_1_1_0_0_n_n.lhsIdx i q 0).val = (i 0).val := by
  unfold DotDims.lhsIdx
  rw [dif_neg (show ¬(0 : Fin S32x128.rank) ∈ dot_S32x128_S8192x128_S32x8192_1_1_0_0_n_n.lhsBatch by decide),
    dif_pos (show (0 : Fin S32x128.rank) ∈ dot_S32x128_S8192x128_S32x8192_1_1_0_0_n_n.lhsNonContracting by decide)]
  rfl
/-- … and the contraction index; -/
theorem lhs_contr (i : S32x8192.Idx) (q : dot_S32x128_S8192x128_S32x8192_1_1_0_0_n_n.contr.Idx) : (dot_S32x128_S8192x128_S32x8192_1_1_0_0_n_n.lhsIdx i q 1).val = (q ⟨0, by decide⟩).val :=
  dot_S32x128_S8192x128_S32x8192_1_1_0_0_n_n.lhsIdx_val_of_single rfl i q
/-- the right operand at the output's COLUMN (its own row: it enters transposed) … -/
theorem rhs_row (i : S32x8192.Idx) (q : dot_S32x128_S8192x128_S32x8192_1_1_0_0_n_n.contr.Idx) : (dot_S32x128_S8192x128_S32x8192_1_1_0_0_n_n.rhsIdx i q 0).val = (i 1).val := by
  unfold DotDims.rhsIdx
  rw [dif_neg (show ¬(0 : Fin S8192x128.rank) ∈ dot_S32x128_S8192x128_S32x8192_1_1_0_0_n_n.rhsBatch by decide),
    dif_pos (show (0 : Fin S8192x128.rank) ∈ dot_S32x128_S8192x128_S32x8192_1_1_0_0_n_n.rhsNonContracting by decide)]
  rfl
/-- … and the contraction index. -/
theorem rhs_contr (i : S32x8192.Idx) (q : dot_S32x128_S8192x128_S32x8192_1_1_0_0_n_n.contr.Idx) : (dot_S32x128_S8192x128_S32x8192_1_1_0_0_n_n.rhsIdx i q 1).val = (q ⟨0, by decide⟩).val :=
  dot_S32x128_S8192x128_S32x8192_1_1_0_0_n_n.rhsIdx_val_of_single rfl i q

/-! ## The stored block at an entry -/

/-- The product into the zero accumulator, at entry `(p, q)`: the sum over `k` of `x(p, k) · w(q, k)`. -/
theorem product_apply (x : FVec Ideal S32x128 .f32) (w : FVec Ideal S8192x128 .f32) (p : Fin 32) (q : Fin 8192) :
    matmul (F := Ideal) dot_S32x128_S8192x128_S32x8192_1_1_0_0_n_n none x w (constant S32x8192 .f32 0x00000000#32) (ix2 p q)
      = ∑ k : Fin 128, x (ix2 p k) * w (ix2 q k) := by
  show FloatOps.matmul dot_S32x128_S8192x128_S32x8192_1_1_0_0_n_n none x w (constant S32x8192 .f32 0x00000000#32) (ix2 p q) = _
  rw [Ideal.matmul_constant_zero_apply, ← Equiv.sum_comp (contrEquiv1 dot_S32x128_S8192x128_S32x8192_1_1_0_0_n_n 128 rfl rfl).symm]
  refine Finset.sum_congr rfl fun k _ => ?_
  have hk := contrEquiv1_symm_val dot_S32x128_S8192x128_S32x8192_1_1_0_0_n_n 128 rfl rfl k
  have el : dot_S32x128_S8192x128_S32x8192_1_1_0_0_n_n.lhsIdx (ix2 p q) ((contrEquiv1 dot_S32x128_S8192x128_S32x8192_1_1_0_0_n_n 128 rfl rfl).symm k) = ix2 p k := funext fun a => Fin.ext (by
    match a with
    | ⟨0, _⟩ => exact lhs_row _ _
    | ⟨1, _⟩ => exact (lhs_contr _ _).trans hk)
  have er : dot_S32x128_S8192x128_S32x8192_1_1_0_0_n_n.rhsIdx (ix2 p q) ((contrEquiv1 dot_S32x128_S8192x128_S32x8192_1_1_0_0_n_n 128 rfl rfl).symm k) = ix2 q k := funext fun a => Fin.ext (by
    match a with
    | ⟨0, _⟩ => exact rhs_row _ _
    | ⟨1, _⟩ => exact (rhs_contr _ _).trans hk)
  rw [el, er]

/-- The bias row repeated down the rows, at entry `(p, q)`: `b(0, q)`. -/
theorem bias_apply (b : FVec Ideal S1x8192 .f32) (p : Fin 32) (q : Fin 8192) :
    broadcastTo S32x8192 (shapeCast S1x8192 b shapeCasts_S1x8192_S1x8192) broadcasts_S1x8192_S32x8192 (ix2 p q)
      = b (ix2 0 q) := by
  rw [shapeCast_self]
  exact broadcastTo_apply b broadcasts_S1x8192_S32x8192 (ix2 p q) (ix2 0 q) (fun a => match a with
    | ⟨0, _⟩ => by show (0 : Nat) = if (1 : Nat) = 1 then 0 else _; rw [if_pos rfl]
    | ⟨1, _⟩ => by show q.val = if (8192 : Nat) = 1 then 0 else q.val; rw [if_neg (by decide)])

/-- The block the body stores, at entry `(p, q)`. -/
theorem stored_apply (x : Vec Ideal S32x128 .f32) (w : Vec Ideal S8192x128 .f32) (b : Vec Ideal S1x8192 .f32)
    (p : Fin 32) (q : Fin 8192) :
    k0_pay1 (F := Ideal) x w b (ix2 p q) = (∑ k : Fin 128, x (ix2 p k) * w (ix2 q k)) + b (ix2 0 q) := by
  show matmul (F := Ideal) dot_S32x128_S8192x128_S32x8192_1_1_0_0_n_n none x w (constant S32x8192 .f32 0x00000000#32) (ix2 p q)
      + broadcastTo S32x8192 (shapeCast S1x8192 b shapeCasts_S1x8192_S1x8192) broadcasts_S1x8192_S32x8192 (ix2 p q) = _
  rw [product_apply, bias_apply]

/-- Two pairs of weight and bias blocks that agree on row `q` of the weights and entry `q` of the bias give the same
    column `q` of the stored block. -/
theorem stored_congr (x : Vec Ideal S32x128 .f32) (w w' : Vec Ideal S8192x128 .f32) (b b' : Vec Ideal S1x8192 .f32)
    (p : Fin 32) (q : Fin 8192) (hw : ∀ k : Fin 128, w (ix2 q k) = w' (ix2 q k)) (hb : b (ix2 0 q) = b' (ix2 0 q)) :
    k0_pay1 (F := Ideal) x w b (ix2 p q) = k0_pay1 (F := Ideal) x w' b' (ix2 p q) := by
  rw [stored_apply, stored_apply, hb]
  exact congrArg (· + b' (ix2 0 q)) (Finset.sum_congr rfl fun k _ => by rw [hw k])

end Cert.KernelIdeal.Payload

end
-- ==== Proof.IdealData.lean ====
/-
  The idealized projection kernel's run, with every staging buffer named.

  Over the extended reals the result block of grid step `t` is named as the body's value `x · wᵀ + b` of the
  activations block and of the weights and bias blocks PADDED to whole buffers (the rows, respectively columns, inside
  the array, and the zero word past the array's end).  At the last step the buffers really hold other words past the
  array's end; but column `q` of the stored block reads only row `q` of the weights buffer and entry `q` of the bias
  buffer, and the columns that are written back are exactly those inside the array, where padded and actual buffers
  agree.  So the part of the result buffer that is written back is the part of the named value, whatever the padding.
-/
import proofs.«140623_g13451837571286_cont_sun_m_1295_1_alg».proof.Proof.IdealBody
import proofs.«140623_g13451837571286_cont_sun_m_1295_1_alg».proof.Proof.IdealPayload
import Idealize.ShloMosaic.Lib.Pipeline.Frame

set_option maxRecDepth 16384

noncomputable section

namespace Cert.KernelIdeal.Body

open Cert.KernelIdeal Cert.KernelIdeal.Gen

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (m : (ℓ : Loc nD τ sig) → Buf (Elt Ideal) ℓ) (ρ : Dev nD → PrngReg)

/-! ## How far each step's blocks reach -/

/-- Decided over the 123 steps: the weights' rows, the bias's columns and the result's columns that a step moves are the
    same in number; the other axes are moved whole. -/
theorem reach : ∀ t : Fin cfg0.N,
    win0_1.xsize (grid0.coords t) (0 : Fin 2) = win0_3.xsize (grid0.coords t) (1 : Fin 2)
    ∧ win0_1.xsize (grid0.coords t) (1 : Fin 2) = 128
    ∧ win0_2.xsize (grid0.coords t) (0 : Fin 2) = 1
    ∧ win0_2.xsize (grid0.coords t) (1 : Fin 2) = win0_3.xsize (grid0.coords t) (1 : Fin 2) :=
  (by decide +kernel : ∀ t : Fin grid0.N, _)

/-! ## The columns written back do not depend on the padding -/

/-- The part of the stored block that step `t` writes back is the same for any two paddings of the step's weights and
    bias blocks. -/
theorem cut_stored_fill (t : Fin cfg0.N) (x : Vec Ideal S32x128 .f32)
    (g1 : ((cfg0.win 1).xblock (cfg0.grid.coords t)).Idx → Elt Ideal .f32)
    (g2 : ((cfg0.win 2).xblock (cfg0.grid.coords t)).Idx → Elt Ideal .f32)
    (d1 d1' : S8192x128.Idx → Elt Ideal .f32) (d2 d2' : S1x8192.Idx → Elt Ideal .f32) :
    (cfg0.win 3).cut (cfg0.grid.coords t)
        (k0_pay1 (F := Ideal) x ((cfg0.win 1).fill (cfg0.grid.coords t) d1 g1) ((cfg0.win 2).fill (cfg0.grid.coords t) d2 g2))
      = (cfg0.win 3).cut (cfg0.grid.coords t)
        (k0_pay1 (F := Ideal) x ((cfg0.win 1).fill (cfg0.grid.coords t) d1' g1) ((cfg0.win 2).fill (cfg0.grid.coords t) d2' g2)) := by
  obtain ⟨r0, r1, r2, r3⟩ := reach t
  funext j
  have hj1 : (j 1).val < win0_3.xsize (grid0.coords t) (1 : Fin 2) := (j 1).isLt
  have hq : (j 1).val < 8192 := Nat.lt_of_lt_of_le hj1 (win0_3.xsize_le (grid0.coords t) 1)
  have hp : (j 0).val < 32 := Nat.lt_of_lt_of_le (j 0).isLt (win0_3.xsize_le (grid0.coords t) 0)
  have e : (cfg0.win 3).xinj (cfg0.grid.coords t) j = ix2 (⟨(j 0).val, hp⟩ : Fin 32) (⟨(j 1).val, hq⟩ : Fin 8192) :=
    funext fun a => Fin.ext (by match a with | ⟨0, _⟩ => rfl | ⟨1, _⟩ => rfl)
  show k0_pay1 (F := Ideal) x _ _ ((cfg0.win 3).xinj (cfg0.grid.coords t) j)
    = k0_pay1 (F := Ideal) x _ _ ((cfg0.win 3).xinj (cfg0.grid.coords t) j)
  rw [e]
  refine Payload.stored_congr x _ _ _ _ _ _ (fun k => ?_) ?_
  · -- row `q` of the weights buffer is inside the array: both paddings hold the block there
    have hm : (cfg0.win 1).moved (cfg0.grid.coords t) (ix2 (⟨(j 1).val, hq⟩ : Fin 8192) k) = true :=
      ((cfg0.win 1).moved_iff _ _).mpr fun a => by
        match a with
        | ⟨0, _⟩ => show (j 1).val < win0_1.xsize (grid0.coords t) (0 : Fin 2); omega
        | ⟨1, _⟩ => show k.val < win0_1.xsize (grid0.coords t) (1 : Fin 2); have := k.isLt; omega
    unfold Window.fill; rw [dif_pos hm, dif_pos hm]
  · -- entry `q` of the bias buffer likewise
    have hm : (cfg0.win 2).moved (cfg0.grid.coords t) (ix2 (0 : Fin 1) (⟨(j 1).val, hq⟩ : Fin 8192)) = true :=
      ((cfg0.win 2).moved_iff _ _).mpr fun a => by
        match a with
        | ⟨0, _⟩ => show (0 : Nat) < win0_2.xsize (grid0.coords t) (0 : Fin 2); omega
        | ⟨1, _⟩ => show (j 1).val < win0_2.xsize (grid0.coords t) (1 : Fin 2); omega
    unfold Window.fill; rw [dif_pos hm, dif_pos hm]

/-! ## The proof data -/

/-- The weights block of step `t` as a whole 8192 × 128 buffer: the rows inside the array, the zero word below them. -/
def wpad (c : Dev nD) (t : Fin cfg0.N) : S8192x128.Idx → Elt Ideal .f32 :=
  (cfg0.win 1).fill (cfg0.grid.coords t) (fun _ => Scalar.ofBits (F := Ideal) .f32 0#32) (iblk m c 1 t)
/-- The bias block of step `t` as a whole 1 × 8192 buffer, likewise. -/
def bpad (c : Dev nD) (t : Fin cfg0.N) : S1x8192.Idx → Elt Ideal .f32 :=
  (cfg0.win 2).fill (cfg0.grid.coords t) (fun _ => Scalar.ofBits (F := Ideal) .f32 0#32) (iblk m c 2 t)
/-- The result block of step `t`: the body's value of the activations block and the padded weights and bias blocks. -/
def logitsBlock (c : Dev nD) (t : Fin cfg0.N) : S32x8192.Idx → Elt Ideal .f32 :=
  k0_pay1 (F := Ideal) (iblk m c 0 t) (wpad m c t) (bpad m c t)

/-- The proof data on core `c`: the arrays as the region finds them; after the body the activations' buffer at its
    block, the weights' and the bias's at their padded blocks, the result's at `logitsBlock`; the invariant the scoped
    rest and the generator register, untouched; nothing owed; full shares. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => wpad m c t
    | ⟨2, _⟩ => bpad m c t
    | ⟨3, _⟩ => logitsBlock m c t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = wpad m c t := by dsimp only [dats]
theorem after0_2 (c : Dev nD) (t : Fin cfg0.N) : (dats m 0 c).after 2 t = bpad m c t := by dsimp only [dats]
theorem after0_3 (c : Dev nD) (t : Fin cfg0.N) : (dats m 0 c).after 3 t = logitsBlock m c t := by dsimp only [dats]

/-- The activations' buffer holds its block at every step (fetched once, kept since). -/
theorem before0_0 (c : Dev nD) (t : Fin cfg0.N) (d) : (dats m 0 c).before 0 t d = iblk m c 0 t :=
  before0_0_of m (dats m 0 c) (A_eq m c 0) (after0_0 m c) t d

/-- The weights' buffer is fetched at every step: its block on the rows inside the array, `d` below them. -/
theorem before0_1 (c : Dev nD) (t : Fin cfg0.N) (d) :
    (dats m 0 c).before 1 t d = (cfg0.win 1).fill (cfg0.grid.coords t) d (iblk m c 1 t) := by
  rw [(dats m 0 c).before_fetched 1 t (fetch0_1 t)]
  unfold Dat.fetched Dat.blockOf iblk
  rw [A_eq]
/-- The bias's likewise. -/
theorem before0_2 (c : Dev nD) (t : Fin cfg0.N) (d) :
    (dats m 0 c).before 2 t d = (cfg0.win 2).fill (cfg0.grid.coords t) d (iblk m c 2 t) := by
  rw [(dats m 0 c).before_fetched 2 t (fetch0_2 t)]
  unfold Dat.fetched Dat.blockOf iblk
  rw [A_eq]
/-- The result's buffer is written back at every step, so each step finds it at contents nothing names. -/
theorem before0_3 (c : Dev nD) (t : Fin cfg0.N) (d) : (dats m 0 c).before 3 t d = d :=
  (dats m 0 c).before_out_reset 3 rfl t
    (by by_cases h : t.val = 0
        · exact .inl h
        · exact .inr ⟨h, flush0_3 _⟩) d

/-! ## The body obligation, at a generic step -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ (∃ d, owns (c : Thread nD τ) (st0_1 t) fullShare
        ((cfg0.win 1).fill (cfg0.grid.coords t) d ((cfg0.win 1).cut (cfg0.grid.coords t) ((dats m 0 c).after 1 t))))
    ∗ (∃ d, owns (c : Thread nD τ) (st0_2 t) fullShare
        ((cfg0.win 2).fill (cfg0.grid.coords t) d ((cfg0.win 2).cut (cfg0.grid.coords t) ((dats m 0 c).after 2 t))))
    ∗ (∃ d, owns (c : Thread nD τ) (st0_3 t) fullShare
        ((cfg0.win 3).fill (cfg0.grid.coords t) d ((cfg0.win 3).cut (cfg0.grid.coords t) ((dats m 0 c).after 3 t)))))

/-- The body at any step: the input buffers arrive holding their blocks padded by whatever was there; the body leaves
    them so and the result's buffer at its value of THOSE buffers, whose written-back part is `logitsBlock`'s. -/
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel c Set.univ (grid0.coords t) _ _ _ _ _ _ _ _ (iblk m c 0 t)
    ((cfg0.win 1).fill (cfg0.grid.coords t) d1 (iblk m c 1 t)) ((cfg0.win 2).fill (cfg0.grid.coords t) d2 (iblk m c 2 t)) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  have h1 : (cfg0.win 1).cut (cfg0.grid.coords t) (wpad m c t) = iblk m c 1 t := (cfg0.win 1).cut_fill _ _ _
  have h2 : (cfg0.win 2).cut (cfg0.grid.coords t) (bpad m c t) = iblk m c 2 t := (cfg0.win 2).cut_fill _ _ _
  have h3 : (cfg0.win 3).fill (cfg0.grid.coords t)
        (k0_pay1 (F := Ideal) (iblk m c 0 t) ((cfg0.win 1).fill (cfg0.grid.coords t) d1 (iblk m c 1 t))
          ((cfg0.win 2).fill (cfg0.grid.coords t) d2 (iblk m c 2 t)))
        ((cfg0.win 3).cut (cfg0.grid.coords t) (logitsBlock m c t))
      = k0_pay1 (F := Ideal) (iblk m c 0 t) ((cfg0.win 1).fill (cfg0.grid.coords t) d1 (iblk m c 1 t))
          ((cfg0.win 2).fill (cfg0.grid.coords t) d2 (iblk m c 2 t)) :=
    (cfg0.win 3).fill_congr_cut (cfg0.grid.coords t) (cut_stored_fill t (iblk m c 0 t) (iblk m c 1 t) (iblk m c 2 t) _ _ _ _)
  isplitl [H1]
  · iexists d1; rw [h1]; iexact H1
  isplitl [H2]
  · iexists d2; rw [h2]; iexact H2
  iexists _; rw [h3]; iexact H3

/-- The pipeline's body obligation: every window but the activations' is stated on the part its transfers move. -/
theorem body_obligation (c : Dev nD) :
    BodyObligationLoose (dats m 0 c) (defs₀ (F := Ideal)) Variants.none () Set.univ := fun t => by
  rw [bigSep_W0, bigSep_W0]
  exact sound_body m c t

/-! ## The run -/

set_option backward.isDefEq.respectTransparency.types false in
/-- Every weakly fair execution of @main terminates, and every final state has every array of the pipeline at what the
    write-backs of the named blocks make it, and every other unscoped buffer as the region found it. -/
theorem run_main : θ_run defs (onTc (τ := τ) (main (F := Ideal))) (s₀ m ρ) (Pipeline.FramePost cfgs (dats m) 0 (V m)) :=
  Pipeline.θ_run_frame cfgs (dats m) (0 : Fin 1) launch0 defs₀ Variants.none m ρ main
    (hbody := fun c => body_obligation m c) (hshare := fun c => (dats m 0 c).share_full fun _ => rfl)
    (howed := fun _ _ => rfl) (V := V m) (hmain := hmain m Variants.none) (hA := A_eq m) (hΦ := fun _ _ => rfl)

end Cert.KernelIdeal.Body

end
-- ==== Proof.Spec.lean ====
/-
  The function both programs compute, over the extended reals: the dense output projection

      logits(p, n) = Σ_{k < 128} x(p, k) · W(n, k) + b(n)        (p < 32, n < 1,000,000),

  of activations `x` (32 × 128), weights `W` (1,000,000 × 128) and bias `b` (1,000,000).  The kernel reaches it tile by
  tile along `n`, the reference by one transposed product and a broadcast sum; the two differ only in how the same
  sums are laid out, so no law beyond the sums themselves is needed and no finiteness of the inputs is used.
-/
import Idealize.ShloMosaic.PureOps.Ideal
import Idealize.ShloMosaic.Lib.ValueIdx

noncomputable section

namespace Cert.Spec

open Idealize.ShloMosaic Idealize.ShloMosaic.ValueIdx

/-- The dense projection, entry by entry. -/
def logits (x : FVec Ideal (⟨2, ![32, 128]⟩ : Shape) .f32) (W : FVec Ideal (⟨2, ![1000000, 128]⟩ : Shape) .f32)
    (b : FVec Ideal (⟨1, ![1000000]⟩ : Shape) .f32) : FVec Ideal (⟨2, ![32, 1000000]⟩ : Shape) .f32 :=
  fun i => (∑ k : Fin 128, x (ix2 (⟨(i 0).val, (i 0).isLt⟩ : Fin 32) k) * W (ix2 (⟨(i 1).val, (i 1).isLt⟩ : Fin 1000000) k))
    + b (ix1 (⟨(i 1).val, (i 1).isLt⟩ : Fin 1000000))

end Cert.Spec

end
-- ==== Proof.IdealValue.lean ====
/-
  From the grid steps' blocks to the whole result array.

  Step `t` (of 123) writes back the columns `8192·t ‥ 8192·t + 8191` of the result, cut at column 1,000,000 (the last
  step writes 576 columns).  What it writes is, entry by entry, the dense projection of the argument arrays: the
  activations block is the whole activations array; row `q` of the step's weights block is row `8192·t + q` of the
  weights; entry `q` of its bias block is entry `8192·t + q` of the bias vector (through the host's reshape of the vector
  to one row, which keeps the row-major order).  Every column `n` lies in the block of step `n / 8192`, so the steps'
  blocks cover the array and it ends holding the dense projection everywhere.
-/
import proofs.«140623_g13451837571286_cont_sun_m_1295_1_alg».proof.Proof.IdealData
import proofs.«140623_g13451837571286_cont_sun_m_1295_1_alg».proof.Proof.Spec
import Idealize.ShloMosaic.Lib.Pipeline.Value
import Idealize.ShloMosaic.Lib.StableHlo.Run

set_option maxRecDepth 16384

noncomputable section

namespace Cert.KernelIdeal.Body

open Cert.KernelIdeal Cert.KernelIdeal.Gen

open Idealize.ShloMosaic Idealize.ShloMosaic.TcCoe Idealize.ShloMosaic.Tactic Idealize.ShloMosaic.ValueIdx
open Idealize.SL Idealize.SL.Sem
open Idealize.ShloMosaic.Pipeline (Dat Cfg Window)

variable (m : (ℓ : Loc nD τ sig) → Buf (Elt Ideal) ℓ) (ρ : Dev nD → PrngReg)

/-! ## Where each step's blocks sit -/

/-- Decided over the 123 steps: the activations' block never moves; the weights' block index is the step on the row
    axis, the bias's and the result's on the column axis; the result's block is written back whole on the row axis and,
    on the column axis, whole before the last step and 576 columns wide at it. -/
theorem place : ∀ t : Fin cfg0.N,
    win0_0.index t (0 : Fin 2) = 0 ∧ win0_0.index t (1 : Fin 2) = 0
    ∧ win0_1.index t (0 : Fin 2) = t.val ∧ win0_1.index t (1 : Fin 2) = 0
    ∧ win0_2.index t (0 : Fin 2) = 0 ∧ win0_2.index t (1 : Fin 2) = t.val
    ∧ win0_3.index t (0 : Fin 2) = 0 ∧ win0_3.index t (1 : Fin 2) = t.val
    ∧ win0_3.xsize (grid0.coords t) (0 : Fin 2) = 32
    ∧ ((t.val < 122 ∧ win0_3.xsize (grid0.coords t) (1 : Fin 2) = 8192)
        ∨ (t.val = 122 ∧ win0_3.xsize (grid0.coords t) (1 : Fin 2) = 576)) :=
  (by decide +kernel : ∀ t : Fin grid0.N, _)

/-! ## The bias as the region finds it: the vector reshaped to one row -/

/-- The host's reshape before the region leaves the bias vector, in row-major order, in the 1 × 1,000,000 array the
    pipeline stages. -/
theorem V_bias_row (c : Dev nD) :
    (V m c main_v0 : S1x1000000.Idx → Elt Ideal .f32)
      = shapeCast S1x1000000 (m ((c : Thread nD τ).loc main_arg3)) Gen.shapeCasts_S1000000_S1x1000000 := by
  dsimp only [Gen.V, Gen.hostOps0]; after_results; rfl

/-- Entry `(0, n)` of that array is entry `n` of the vector. -/
theorem bias_row_apply (c : Dev nD) (n : Fin 1000000) :
    (V m c main_v0 : S1x1000000.Idx → Elt Ideal .f32) (ix2 (0 : Fin 1) n) = m ((c : Thread nD τ).loc main_arg3) (ix1 n) := by
  rw [V_bias_row]
  exact shapeCast_apply _ _ (ix2 (0 : Fin 1) n) (ix1 n) (by
    rw [Shape.rowMajor_val_one, Shape.rowMajor_val_two]
    show n.val = 0 * 1000000 + n.val
    omega)

/-! ## The blocks' entries as entries of the argument arrays -/

/-- The activations block is the whole array. -/
theorem x_apply (c : Dev nD) (t : Fin cfg0.N) (p : Fin 32) (k : Fin 128) :
    iblk m c 0 t (ix2 p k) = m ((c : Thread nD τ).loc main_arg0) (ix2 p k) := by
  obtain ⟨i00, i01, -⟩ := place t
  unfold iblk
  rw [View.read_apply]
  show V m c main_arg0 (((cfg0.win 0).blk t).view.emb (ix2 p k)) = _
  rw [V_main_arg0]
  refine congrArg _ (funext fun a => Fin.ext ?_)
  match a with
  | ⟨0, _⟩ => show win0_0.index t (0 : Fin 2) * 32 + 1 * p.val = p.val; omega
  | ⟨1, _⟩ => show win0_0.index t (1 : Fin 2) * 128 + 1 * k.val = k.val; omega

/-- Row `q` of the padded weights block of step `t`, for a row inside the array, is row `8192·t + q` of the weights. -/
theorem w_apply (c : Dev nD) (t : Fin cfg0.N) (q : Fin 8192) (k : Fin 128)
    (hq : q.val < win0_3.xsize (grid0.coords t) (1 : Fin 2)) (n : Fin 1000000) (hn : n.val = t.val * 8192 + q.val) :
    wpad m c t (ix2 q k) = m ((c : Thread nD τ).loc main_arg2) (ix2 n k) := by
  obtain ⟨r0, r1, r2, r3⟩ := reach t
  obtain ⟨-, -, i10, i11, -⟩ := place t
  have hm : (cfg0.win 1).moved (cfg0.grid.coords t) (ix2 q k) = true :=
    ((cfg0.win 1).moved_iff _ _).mpr fun a => by
      match a with
      | ⟨0, _⟩ => show q.val < win0_1.xsize (grid0.coords t) (0 : Fin 2); omega
      | ⟨1, _⟩ => show k.val < win0_1.xsize (grid0.coords t) (1 : Fin 2); have := k.isLt; omega
  unfold wpad Window.fill
  rw [dif_pos hm]
  unfold iblk
  rw [View.read_apply]
  show V m c main_arg2 (((cfg0.win 1).blk t).view.emb _) = _
  rw [V_main_arg2]
  refine congrArg _ (funext fun a => Fin.ext ?_)
  match a with
  | ⟨0, _⟩ => show win0_1.index t (0 : Fin 2) * 8192 + 1 * q.val = n.val; omega
  | ⟨1, _⟩ => show win0_1.index t (1 : Fin 2) * 128 + 1 * k.val = k.val; omega

/-- Entry `q` of the padded bias block of step `t`, for a column inside the array, is entry `8192·t + q` of the bias. -/
theorem b_apply (c : Dev nD) (t : Fin cfg0.N) (q : Fin 8192)
    (hq : q.val < win0_3.xsize (grid0.coords t) (1 : Fin 2)) (n : Fin 1000000) (hn : n.val = t.val * 8192 + q.val) :
    bpad m c t (ix2 (0 : Fin 1) q) = m ((c : Thread nD τ).loc main_arg3) (ix1 n) := by
  obtain ⟨r0, r1, r2, r3⟩ := reach t
  obtain ⟨-, -, -, -, i20, i21, -⟩ := place t
  have hm : (cfg0.win 2).moved (cfg0.grid.coords t) (ix2 (0 : Fin 1) q) = true :=
    ((cfg0.win 2).moved_iff _ _).mpr fun a => by
      match a with
      | ⟨0, _⟩ => show (0 : Nat) < win0_2.xsize (grid0.coords t) (0 : Fin 2); omega
      | ⟨1, _⟩ => show q.val < win0_2.xsize (grid0.coords t) (1 : Fin 2); omega
  unfold bpad Window.fill
  rw [dif_pos hm]
  unfold iblk
  rw [View.read_apply, ← bias_row_apply m c n]
  show V m c main_v0 (((cfg0.win 2).blk t).view.emb _) = _
  refine congrArg _ (funext fun a => Fin.ext ?_)
  match a with
  | ⟨0, _⟩ => show win0_2.index t (0 : Fin 2) * 1 + 1 * 0 = 0; omega
  | ⟨1, _⟩ => show win0_2.index t (1 : Fin 2) * 8192 + 1 * q.val = n.val; omega

/-! ## What a step writes back -/

/-- The part of the result block step `t` writes back is block `t` of the dense projection of the argument arrays. -/
theorem flushed_logits (c : Dev nD) (t : Fin cfg0.N) :
    (dats m 0 c).flushed 3 t = ((cfg0.win 3).blk t).view.read (Elt Ideal)
      (Cert.Spec.logits (m ((c : Thread nD τ).loc main_arg0)) (m ((c : Thread nD τ).loc main_arg2))
        (m ((c : Thread nD τ).loc main_arg3))) := by
  show (cfg0.win 3).cut (grid0.coords t) ((dats m 0 c).after 3 t) = _
  rw [after0_3]
  obtain ⟨-, -, -, -, -, -, i30, i31, x30, x31⟩ := place t
  funext j
  have hj1 : (j 1).val < win0_3.xsize (grid0.coords t) (1 : Fin 2) := (j 1).isLt
  have hq : (j 1).val < 8192 := Nat.lt_of_lt_of_le hj1 (win0_3.xsize_le (grid0.coords t) 1)
  have hp : (j 0).val < 32 := Nat.lt_of_lt_of_le (j 0).isLt (win0_3.xsize_le (grid0.coords t) 0)
  have hn : t.val * 8192 + (j 1).val < 1000000 := by rcases x31 with ⟨h, hx⟩ | ⟨h, hx⟩ <;> omega
  have e : (cfg0.win 3).xinj (cfg0.grid.coords t) j = ix2 (⟨(j 0).val, hp⟩ : Fin 32) (⟨(j 1).val, hq⟩ : Fin 8192) :=
    funext fun a => Fin.ext (by match a with | ⟨0, _⟩ => rfl | ⟨1, _⟩ => rfl)
  have hemb : ((cfg0.win 3).blk t).view.emb j
      = ix2 (⟨(j 0).val, hp⟩ : Fin 32) (⟨t.val * 8192 + (j 1).val, hn⟩ : Fin 1000000) :=
    funext fun a => Fin.ext (by
      match a with
      | ⟨0, _⟩ => show win0_3.index t (0 : Fin 2) * 32 + 1 * (j 0).val = (j 0).val; omega
      | ⟨1, _⟩ => show win0_3.index t (1 : Fin 2) * 8192 + 1 * (j 1).val = t.val * 8192 + (j 1).val; omega)
  show logitsBlock m c t ((cfg0.win 3).xinj (cfg0.grid.coords t) j) = _
  rw [e, View.read_apply, hemb]
  unfold logitsBlock
  rw [Payload.stored_apply]
  have hw : ∀ k : Fin 128, wpad m c t (ix2 (⟨(j 1).val, hq⟩ : Fin 8192) k)
      = m ((c : Thread nD τ).loc main_arg2) (ix2 (⟨t.val * 8192 + (j 1).val, hn⟩ : Fin 1000000) k) :=
    fun k => w_apply m c t _ k hj1 _ rfl
  have hb : bpad m c t (ix2 (0 : Fin 1) (⟨(j 1).val, hq⟩ : Fin 8192))
      = m ((c : Thread nD τ).loc main_arg3) (ix1 (⟨t.val * 8192 + (j 1).val, hn⟩ : Fin 1000000)) :=
    b_apply m c t _ hj1 _ rfl
  simp only [x_apply, hw, hb]
  rfl

/-! ## The steps' blocks cover the result -/

/-- An index of the result lies in step `t`'s block iff each coordinate lies in the block's range on its axis. -/
theorem mem_blk (t : Fin cfg0.N) (i : S32x1000000.Idx) :
    i ∈ ((cfg0.win 3).blk t).view.set ↔ ∀ a : Fin 2, win0_3.index t a * S32x8192.size a ≤ (i a).val
      ∧ (i a).val < win0_3.index t a * S32x8192.size a + win0_3.xsize (grid0.coords t) a := by
  show i ∈ ((View.whole main_v1).slice (win0_3.rect t)).set ↔ _
  rw [View.set_slice_whole, Rect.mem_set_unit]
  exact Iff.rfl

/-- Column `n` lies in the block of step `n / 8192`. -/
theorem covered (i : S32x1000000.Idx) :
    ∃ t : Fin cfg0.N, (cfg0.win 3).flush t = true ∧ i ∈ ((cfg0.win 3).blk t).view.set := by
  have h0 : (i 0).val < 32 := (i 0).isLt
  have h1 : (i 1).val < 1000000 := (i 1).isLt
  have hN : cfg0.N = 123 := N_0
  obtain ⟨t, ht⟩ : ∃ t : Fin cfg0.N, t.val = (i 1).val / 8192 := ⟨⟨(i 1).val / 8192, by rw [hN]; omega⟩, rfl⟩
  obtain ⟨-, -, -, -, -, -, i30, i31, x30, x31⟩ := place t
  refine ⟨t, flush0_3 t, ?_⟩
  rw [mem_blk]
  intro a
  match a with
  | ⟨0, _⟩ =>
    show win0_3.index t (0 : Fin 2) * 32 ≤ (i 0).val ∧ (i 0).val < win0_3.index t (0 : Fin 2) * 32 + win0_3.xsize (grid0.coords t) (0 : Fin 2)
    omega
  | ⟨1, _⟩ =>
    show win0_3.index t (1 : Fin 2) * 8192 ≤ (i 1).val ∧ (i 1).val < win0_3.index t (1 : Fin 2) * 8192 + win0_3.xsize (grid0.coords t) (1 : Fin 2)
    rcases x31 with ⟨h, hx⟩ | ⟨h, hx⟩ <;> omega

/-- The result array after the run is the dense projection of the argument arrays. -/
theorem final_logits (c : Dev nD) : (dats m 0 c).arrAt 3 cfg0.N
    = Cert.Spec.logits (m ((c : Thread nD τ).loc main_arg0)) (m ((c : Thread nD τ).loc main_arg2))
        (m ((c : Thread nD τ).loc main_arg3)) :=
  (dats m 0 c).arrAt_eq_of_cover 3 _ (fun t _ => flushed_logits m c t) covered

/-! ## The run, read -/

/-- Every weakly fair execution of the idealized kernel's @main terminates with the result array at the dense
    projection of the argument arrays and the four argument arrays unchanged. -/
theorem run : θ_run defs (onTc (τ := τ) (main (F := Ideal))) ⟨m, fun _ => 0, ρ⟩ fun r => ∀ c : Dev nD,
      r.2.mem ((c.tc : Thread nD τ).loc main_v1)
        = Cert.Spec.logits (m ((c.tc : Thread nD τ).loc main_arg0)) (m ((c.tc : Thread nD τ).loc main_arg2))
            (m ((c.tc : Thread nD τ).loc main_arg3))
      ∧ r.2.mem ((c.tc : Thread nD τ).loc main_arg1) = m ((c.tc : Thread nD τ).loc main_arg1)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c =>
    have k0 := ((h c).1 0).trans (((dats m 0 c).arrAt_in 0 rfl _).trans ((A_eq m c 0).trans (V_main_arg0 m c)))
    have k1 := ((h c).2 main_arg1 (Pipeline.mem_restRefs_of main_arg1 (by decide) (by decide))).trans (V_main_arg1 m c)
    have k2 := ((h c).1 1).trans (((dats m 0 c).arrAt_in 1 rfl _).trans ((A_eq m c 1).trans (V_main_arg2 m c)))
    have k3 := ((h c).2 main_arg3 (Pipeline.mem_restRefs_of main_arg3 (by decide) (by decide))).trans (V_main_arg3 m c)
    ⟨((h c).1 3).trans (final_logits m c), k1, k0, k1, k2, k3⟩) (run_main m ρ)

end Cert.KernelIdeal.Body

end
-- ==== Proof.RefValue.lean ====
/-
  The reference computes the dense projection.

  Its @main transposes the weights, takes one product of the activations with the transposed weights (contracting the
  activations' second axis with the transposed weights' first), broadcasts the bias along the rows and adds.  Read at an
  entry `(p, n)` through the generated index lemmas this is `Σ_k x(p, k) · W(n, k) + b(n)`: the transpose swaps the two
  coordinates back, and the two broadcasts keep the column coordinate.
-/
import proofs.«140623_g13451837571286_cont_sun_m_1295_1_alg».proof.Proof.Gen.ReferenceIdeal.Read
import proofs.«140623_g13451837571286_cont_sun_m_1295_1_alg».proof.Proof.Spec

noncomputable section

namespace Cert.ReferenceIdeal.RefValue

open Cert.ReferenceIdeal Cert.ReferenceIdeal.Gen Cert.ReferenceIdeal.Read
open Idealize.ShloMosaic Idealize.ShloMosaic.ValueIdx

/-- The last stage of the reference, as a function of the three float arguments, is the dense projection. -/
theorem reference_eq (x0 : (⟨S32x128, .f32⟩ : BufTy).Contents (Elt Ideal)) (x2 : (⟨S1000000x128, .f32⟩ : BufTy).Contents (Elt Ideal))
    (x3 : (⟨S1000000, .f32⟩ : BufTy).Contents (Elt Ideal)) :
    val_main_v4 (F := Ideal) x0 x2 x3 = Cert.Spec.logits x0 x2 x3 := by
  funext i
  have el : ∀ k : Fin 128, lidx_main_v1 i k = ix2 (⟨(i 0).val, (i 0).isLt⟩ : Fin 32) k := fun k =>
    funext fun a => Fin.ext (by match a with | ⟨0, _⟩ => rfl | ⟨1, _⟩ => rfl)
  have er : ∀ k : Fin 128, idx_main_v0 (ridx_main_v1 i k) = ix2 (⟨(i 1).val, (i 1).isLt⟩ : Fin 1000000) k := fun k =>
    funext fun a => Fin.ext (by match a with | ⟨0, _⟩ => rfl | ⟨1, _⟩ => rfl)
  have eb : idx_main_v2 (idx_main_v3 i) = ix1 (⟨(i 1).val, (i 1).isLt⟩ : Fin 1000000) :=
    funext fun a => Fin.ext (by match a with | ⟨0, _⟩ => rfl)
  rw [val_main_v4_apply, val_main_v1_apply, val_main_v3_apply, val_main_v2_apply]
  simp only [val_main_v0_apply, el, er, eb]
  rfl

end Cert.ReferenceIdeal.RefValue

end
-- ==== Proof.lean ====
/-
  The claim: a tiled dense output projection against the plain one.

  The kernel computes `logits = x · Wᵀ + b` for activations `x` (32 × 128), weights `W` (1,000,000 × 128) and bias `b`
  (1,000,000) in 123 grid steps of 8192 vocabulary columns each, the last step overhanging the arrays by 7616 columns;
  the reference computes it in one transposed product and a broadcast sum.  Over the extended reals both result arrays
  hold, at `(p, n)`, the sum `Σ_k x(p, k) · W(n, k) + b(n)` (Proof/Spec.lean): the kernel's because column `n` is written by
  step `n / 8192` from row `n` of the weights and entry `n` of the bias only, whatever the overhanging staging buffers
  hold past the arrays' end (Proof/IdealData.lean, Proof/IdealValue.lean); the reference's by reading its five host
  operations at an index (Proof/RefValue.lean).  Only the layout of the same sums differs, so the precondition (finite
  inputs) is never used.  The labels pass through both programs untouched.

  The three frames: the kernel read at bit patterns keeps its arguments because its pipeline only fetches them
  (Proof/KernelFrame.lean, which says nothing of the result array); the idealized kernel's frame is part of its value
  run; the reference's is its run with the result dropped.  The ideal pass rewrote nothing, so the idealization
  conjunct is trivial.
-/
import proofs.«140623_g13451837571286_cont_sun_m_1295_1_alg».proof.Defs
import proofs.«140623_g13451837571286_cont_sun_m_1295_1_alg».proof.Proof.Gen.Kernel
import proofs.«140623_g13451837571286_cont_sun_m_1295_1_alg».proof.Proof.Gen.KernelIdeal
import proofs.«140623_g13451837571286_cont_sun_m_1295_1_alg».proof.Proof.Gen.ReferenceIdeal
import proofs.«140623_g13451837571286_cont_sun_m_1295_1_alg».proof.Proof.Gen.Pre_finite_inputs
import proofs.«140623_g13451837571286_cont_sun_m_1295_1_alg».proof.Proof.Gen.ReferenceIdeal.Run
import proofs.«140623_g13451837571286_cont_sun_m_1295_1_alg».proof.Proof.Gen.ReferenceIdeal.Read
import proofs.«140623_g13451837571286_cont_sun_m_1295_1_alg».proof.Proof.KernelFrame
import proofs.«140623_g13451837571286_cont_sun_m_1295_1_alg».proof.Proof.IdealValue
import proofs.«140623_g13451837571286_cont_sun_m_1295_1_alg».proof.Proof.RefValue
import Idealize.ShloMosaic.Adequacy
import Idealize.ShloMosaic.Init

noncomputable section

namespace Cert.Proof

open Idealize.ShloMosaic Idealize.SL.Sem

/-- The kernel at bit patterns runs and keeps its arguments. -/
theorem frame_kernel : Cert.frame_Kernel := fun m ρ _ => Cert.Kernel.Body.frame m ρ

/-- The idealized kernel runs and keeps its arguments: its value run, the result array dropped. -/
theorem frame_kernelIdeal : Cert.frame_KernelIdeal := fun m ρ _ =>
  (θ_run Cert.KernelIdeal.defs _ _).mono (fun _ h c => ⟨(h c).2.2.1, (h c).2.2.2.1, (h c).2.2.2.2.1, (h c).2.2.2.2.2⟩)
    (Cert.KernelIdeal.Body.run m ρ)

/-- The reference runs and keeps its arguments: its generated run, the result dropped. -/
theorem frame_reference : Cert.frame_ReferenceIdeal := fun m ρ _ =>
  (θ_run Cert.ReferenceIdeal.defs _ _).mono (fun _ h c => (h c).2.2) (Cert.ReferenceIdeal.Value.run (F := Ideal) m ρ)

/-- From memories agreeing on the arguments both idealized programs end with the result array at the dense projection
    of the arguments, and with the labels as launched. -/
theorem algebraic : Cert.algebraic_KernelIdeal_ReferenceIdeal := by
  intro m ρ m' ρ' _ hagree
  refine ⟨fun c => Cert.Spec.logits (m ((c.tc : Thread Cert.KernelIdeal.nD Cert.KernelIdeal.τ).loc Cert.KernelIdeal.main_arg0))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)),
    fun c => m ((c.tc : Thread Cert.KernelIdeal.nD Cert.KernelIdeal.τ).loc Cert.KernelIdeal.main_arg1),
    Cert.KernelIdeal.Body.run m ρ, ?_⟩
  refine (θ_run Cert.ReferenceIdeal.defs _ _).mono (fun _ h c => ⟨?_, ?_, (h c).2.2⟩)
    (Cert.ReferenceIdeal.Value.run (F := Ideal) m' ρ')
  · rw [(h c).1, Cert.ReferenceIdeal.Read.val_main_v4_eq, Cert.ReferenceIdeal.RefValue.reference_eq,
      (hagree c).1, (hagree c).2.2.1, (hagree c).2.2.2]
  · rw [(h c).2.1, (hagree c).2.1]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
